-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) (main_arg3 : IVec S16x2048x2048 1) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S16x2048x2048 : Shape := ⟨3, ![16, 2048, 2048]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .i32⟩
  | .hbm, ⟨5, _⟩ => ⟨S16x2048x128, .f32⟩
  | .hbm, ⟨6, _⟩ => ⟨S16x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1024x128, .f32⟩
  | .local _ .vmem, ⟨9, _⟩ => ⟨S1x1024x128, .f32⟩
  | .local _ .vmem, ⟨10, _⟩ => ⟨S1x1024x2048, .f32⟩
  | .local _ .vmem, ⟨11, _⟩ => ⟨S1x1024x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x2048_S1x1024x2048 : S1024x2048.ShapeCasts S1x1024x2048
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x2048x128.size a
  hwx0_0 : ∀ i : grid0.Coords, EltTy.bits .f32 = 32 ∨ (Rect.block (s := S16x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S16x2048x2048.size a
  hwx0_3 : ∀ i : grid0.Coords, EltTy.bits .i32 = 32 ∨ (Rect.block (s := S16x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S16x2048x128.size a
  hwx0_4 : ∀ i : grid0.Coords, EltTy.bits .f32 = 32 ∨ (Rect.block (s := S16x2048x128) S1x1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S16x2048x2048.size a
  hwx0_5 : ∀ i : grid0.Coords, EltTy.bits .f32 = 32 ∨ (Rect.block (s := S16x2048x2048) S1x1024x2048.size (cc0_transform_5 i) (hinb0_5 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Softmax.lean ====
/-
  Masked scaled dot-product attention over the extended reals, as plain functions of the argument arrays.

  For a batch `b` and a query row `r` the score against key `k` is `(∑ₑ Q[b,r,e] · K[b,k,e]) · s` with `s` the f32 word
  of the scale, replaced by the f32 word of the fill where the mask bit is set. A row of scores is turned into weights by
  the shifted softmax: with `μ` the maximum of the row (folded from `-∞`), weight `k` is `exp (x k - μ) / ∑ⱼ exp (x j - μ)`.
  The context row is the weights' combination of the value rows, `∑ₖ w k · V[b,k,d]`.

  The three float words are kept as words: both programs carry the same ones, so their real values are never needed.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Attention

/-- The f32 word both programs scale the scores by. -/
abbrev scaleWord : EReal := Ideal.ofBits .f32 0x3DB504F3#32
/-- The f32 word both programs put where the mask bit is set. -/
abbrev fillWord : EReal := Ideal.ofBits .f32 0xD01502F9#32
/-- The f32 word of `-∞`, from which both programs fold a row's maximum. -/
abbrev negInfWord : EReal := Ideal.ofBits .f32 0xFF800000#32

/-- The maximum of a row of 2048 scores, folded from `-∞`'s word. -/
def rowMax (x : Fin 2048 → EReal) : EReal := (Finset.univ : Finset (Fin 2048)).fold max negInfWord x

/-- The fold starts from the word, so it is at least the word: taking the maximum with it once more changes nothing. -/
theorem max_word_rowMax (x : Fin 2048 → EReal) : max negInfWord (rowMax x) = rowMax x :=
  max_eq_right ((Finset.le_fold_max _).mpr (Or.inl le_rfl))

/-- The shifted exponential of entry `k` of a row. -/
def expShift (x : Fin 2048 → EReal) (k : Fin 2048) : EReal := Ideal.exp (x k - rowMax x)

/-- Softmax of a row: each shifted exponential over their sum. -/
def softmax (x : Fin 2048 → EReal) (k : Fin 2048) : EReal := Ideal.div (expShift x k) (∑ j : Fin 2048, expShift x j)

/-- The masked scaled score of one query row `q` against the keys `key`, under the mask bits `bit`. -/
def score (q : Fin 128 → EReal) (key : Fin 2048 → Fin 128 → EReal) (bit : Fin 2048 → BitVec 1) (k : Fin 2048) : EReal :=
  Scalar.select (bit k) fillWord ((∑ e : Fin 128, q e * key k e) * scaleWord)

/-- Two rows of the same entries have the same scores. -/
theorem score_congr {q q' : Fin 128 → EReal} {key key' : Fin 2048 → Fin 128 → EReal} {bit bit' : Fin 2048 → BitVec 1}
    (hq : ∀ e, q e = q' e) (hk : ∀ k e, key k e = key' k e) (hb : ∀ k, bit k = bit' k) : score q key bit = score q' key' bit' := by
  have e1 : q = q' := funext hq
  have e2 : key = key' := funext fun k => funext (hk k)
  have e3 : bit = bit' := funext hb
  rw [e1, e2, e3]

/-- The arrays' shapes: queries, keys and values `[16, 2048, 128]`, mask and weights `[16, 2048, 2048]`. -/
abbrev QKV : Shape := ⟨3, ![16, 2048, 128]⟩
abbrev Sq : Shape := ⟨3, ![16, 2048, 2048]⟩

/-- The score row of batch `b`, query row `r`. -/
def scoreRow (Q K : QKV.Idx → EReal) (bits : Sq.Idx → BitVec 1) (b : Fin 16) (r : Fin 2048) : Fin 2048 → EReal :=
  score (fun e => Q (ix3 b r e)) (fun k e => K (ix3 b k e)) (fun k => bits (ix3 b r k))

/-- The attention weights, index by index. -/
def weights (Q K : QKV.Idx → EReal) (bits : Sq.Idx → BitVec 1) : Sq.Idx → EReal :=
  fun i => softmax (scoreRow Q K bits (i 0) (i 1)) (i 2)

/-- The context, index by index: the weights' combination of the value rows. -/
def context (Q K V : QKV.Idx → EReal) (bits : Sq.Idx → BitVec 1) : QKV.Idx → EReal :=
  fun i => ∑ k : Fin 2048, softmax (scoreRow Q K bits (i 0) (i 1)) k * V (ix3 (i 0) k (i 2))

/-- A mask bit widened to a 32-bit word and compared against zero is the bit again. -/
theorem bit_of_word : ∀ b : BitVec 1, IntOp.cmpi .ne (b.setWidth 32) 0#32 = b := by decide

end Cert.Attention

end
-- ==== Proof.RefAttention.lean ====
/-
  The reference computes the attention weights and the context of `Softmax.lean`, index by index.

  Its program is read one operation at a time (the generated read-at-an-index lemmas). The only stage they leave unread is
  the row maximum, a fold of `max` over the last axis from `-∞`'s word; the reference then takes the maximum with that word
  once more, which changes nothing. Its row sum starts from the zero word, which is the real `0`.
-/
import proofs.«164671_j3796751089884_2_alg».proof.Proof.Gen.ReferenceIdeal.Read
import proofs.«164671_j3796751089884_2_alg».proof.Proof.Softmax
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attention

variable (Q K V : (⟨S16x2048x128, .f32⟩ : BufTy).Contents (Elt Ideal)) (bits : (⟨S16x2048x2048, .i1⟩ : BufTy).Contents (Elt Ideal))

/-- The masked scaled score at `(b, r, k)`. -/
theorem score_at (b : Fin 16) (r k : Fin 2048) :
    val_main_v3 (F := Ideal) Q K bits (ix3 b r k) = scoreRow Q K bits b r k := by
  rw [val_main_v3_apply, val_main_call0_v1_apply, val_main_call0_v0_apply, val_main_cst_0_apply, val_main_v2_apply,
    val_main_v0_apply, val_main_v1_apply, val_main_cst_apply]
  have el : ∀ e : Fin 128, lidx_main_v0 (ix3 b r k) e = ix3 b r e := fun e => funext fun a => Fin.ext (by
    match a with | ⟨0, _⟩ => rfl | ⟨1, _⟩ => rfl | ⟨2, _⟩ => rfl)
  have er : ∀ e : Fin 128, ridx_main_v0 (ix3 b r k) e = ix3 b k e := fun e => funext fun a => Fin.ext (by
    match a with | ⟨0, _⟩ => rfl | ⟨1, _⟩ => rfl | ⟨2, _⟩ => rfl)
  simp only [el, er]
  rfl

/-- The row maximum at `(b, r)`: the fold over the last axis, and the maximum with `-∞`'s word once more. -/
theorem max_at (b : Fin 16) (r : Fin 2048) :
    val_main_v6 (F := Ideal) Q K bits (ix2 b r) = rowMax (scoreRow Q K bits b r) := by
  rw [val_main_v6_apply, val_main_v5_apply, val_main_cst_2_apply]
  unfold val_main_v4
  have hR : S16x2048x2048.Reduces [2] S16x2048 := by decide
  rw [Host.reduce_eq_fold_single FloatOps.maximumf _ _ reducesTo_S16x2048x2048_S16x2048_d2 hR h_S_ (ix2 b r)]
  have hrow : (val_main_v3 (F := Ideal) Q K bits ∘ hR.lift (ix2 b r)) = scoreRow Q K bits b r := funext fun k => by
    show val_main_v3 (F := Ideal) Q K bits (hR.lift (ix2 b r) k) = _
    rw [show hR.lift (ix2 b r) k = ix3 b r k from funext fun a => Fin.ext (by
      match a with | ⟨0, _⟩ => rfl | ⟨1, _⟩ => rfl | ⟨2, _⟩ => rfl)]
    exact score_at Q K bits b r k
  rw [hrow]
  exact max_word_rowMax _

/-- The shifted exponential at `(b, r, k)`. -/
theorem exp_at (b : Fin 16) (r k : Fin 2048) :
    val_main_v10 (F := Ideal) Q K bits (ix3 b r k) = expShift (scoreRow Q K bits b r) k := by
  rw [val_main_v10_apply, val_main_v9_apply, val_main_v8_apply, val_main_v7_apply]
  rw [show idx_main_v7 (idx_main_v8 (ix3 b r k)) = ix2 b r from funext fun a => Fin.ext (by
    match a with | ⟨0, _⟩ => rfl | ⟨1, _⟩ => rfl)]
  rw [max_at, score_at]
  rfl

/-- The row sum of the shifted exponentials at `(b, r)`. -/
theorem sum_at (b : Fin 16) (r : Fin 2048) :
    val_main_v11 (F := Ideal) Q K bits (ix2 b r) = ∑ j : Fin 2048, expShift (scoreRow Q K bits b r) j := by
  rw [val_main_v11_apply, val_main_cst_3_apply, Ideal.ofBits_def, Ideal.ofBits_zero_f32, zero_add]
  refine Finset.sum_congr rfl fun j _ => ?_
  rw [show idx_main_v11 (ix2 b r) j = ix3 b r j from funext fun a => Fin.ext (by
    match a with | ⟨0, _⟩ => rfl | ⟨1, _⟩ => rfl | ⟨2, _⟩ => rfl)]
  exact exp_at Q K bits b r j

/-- The reference's second result is the attention weights. -/
theorem weights_eq : val_main_v14 (F := Ideal) Q K bits = weights Q K bits := by
  funext i
  obtain ⟨b, r, k, rfl⟩ : ∃ (b : Fin 16) (r k : Fin 2048), i = ix3 b r k := ⟨i 0, i 1, i 2, eq_ix3 i⟩
  rw [val_main_v14_apply, val_main_v13_apply, val_main_v12_apply]
  rw [show idx_main_v12 (idx_main_v13 (ix3 b r k)) = ix2 b r from funext fun a => Fin.ext (by
    match a with | ⟨0, _⟩ => rfl | ⟨1, _⟩ => rfl)]
  rw [sum_at, exp_at]
  rfl

/-- The reference's first result is the context. -/
theorem context_eq : val_main_v15 (F := Ideal) Q K V bits = context Q K V bits := by
  funext i
  obtain ⟨b, r, d, rfl⟩ : ∃ (b : Fin 16) (r : Fin 2048) (d : Fin 128), i = ix3 b r d := ⟨i 0, i 1, i 2, eq_ix3 i⟩
  rw [val_main_v15_apply]
  refine Finset.sum_congr rfl fun k _ => ?_
  rw [show lidx_main_v15 (ix3 b r d) k = ix3 b r k from funext fun a => Fin.ext (by
      match a with | ⟨0, _⟩ => rfl | ⟨1, _⟩ => rfl | ⟨2, _⟩ => rfl),
    show ridx_main_v15 (ix3 b r d) k = ix3 b k d from funext fun a => Fin.ext (by
      match a with | ⟨0, _⟩ => rfl | ⟨1, _⟩ => rfl | ⟨2, _⟩ => rfl),
    weights_eq]
  rfl

end Cert.ReferenceIdeal.RefValue

end
-- ==== Proof.BodyRows.lean ====
/-
  What the kernel body computes from its four loaded blocks, read at an index.

  The body forms the block of masked scaled scores (a query block times the transposed key block, scaled, the fill word
  where the mask word is not zero), takes each row's maximum, exponentiates the shifted scores, sums each row and divides:
  row `r` of the result is the softmax of row `r` of the scores. It stores that block as the weights and its product with
  the value block as the context. Each step is read at `(r, k)`: the two products as sums over the contracted coordinate,
  the two row reductions as a fold of `max` and a sum over the row, the column casts and broadcasts as reads of the
  column's entry `r`.
-/
import proofs.«164671_j3796751089884_2_alg».proof.Proof.Gen.KernelIdeal.Skeleton
import proofs.«164671_j3796751089884_2_alg».proof.Proof.Softmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Attention

/-! ## Columns: a vector of row values cast to a column and spread along the rows -/

/-- A `[1024]` vector cast to a `[1024, 1]` column keeps entry `r`. -/
theorem column_cast (v : FVec Ideal S1024 .f32) (r : Fin 1024) (u : Fin 1) :
    shapeCast S1024x1 v shapeCasts_S1024_S1024x1 (ix2 r u) = v (ix1 r) :=
  shapeCast_apply v shapeCasts_S1024_S1024x1 (ix2 r u) (ix1 r) (by
    have hu : u.val = 0 := by omega
    rw [Shape.rowMajor_val_one, Shape.rowMajor_val_two]
    show r.val = r.val * 1 + u.val
    omega)

/-- A `[1024, 1]` column broadcast to `[1024, 2048]` reads, at `(r, k)`, the column's entry `r`. -/
theorem column_spread (v : FVec Ideal S1024x1 .f32) (r : Fin 1024) (k : Fin 2048) :
    broadcastTo S1024x2048 v broadcasts_S1024x1_S1024x2048 (ix2 r k) = v (ix2 r (0 : Fin 1)) := by
  refine broadcastTo_apply v broadcasts_S1024x1_S1024x2048 (ix2 r k) (ix2 r (0 : Fin 1)) fun ax => ?_
  match ax with
  | ⟨0, _⟩ =>
    show r.val = if (1024 : Nat) = 1 then 0 else r.val
    rw [if_neg (by decide)]
  | ⟨1, _⟩ =>
    show 0 = if (1 : Nat) = 1 then 0 else k.val
    rw [if_pos rfl]

/-! ## The softmax of a block of scores -/

/-- Each row's maximum. -/
def maxCol (X : FVec Ideal S1024x2048 .f32) : FVec Ideal S1024 .f32 :=
  multiReduction (F := Ideal) .maximumf [1] S1024 X 0xFF800000#32 reduces_S1024x2048_S1024 (.inl rfl) rfl

/-- The exponentials of the scores shifted by their row's maximum. -/
def expBlock (X : FVec Ideal S1024x2048 .f32) : FVec Ideal S1024x2048 .f32 :=
  exp (subf X (broadcastTo S1024x2048 (shapeCast S1024x1 (maxCol X) shapeCasts_S1024_S1024x1) broadcasts_S1024x1_S1024x2048))

/-- Each row's sum of them. -/
def sumCol (X : FVec Ideal S1024x2048 .f32) : FVec Ideal S1024 .f32 :=
  multiReduction (F := Ideal) .add [1] S1024 (expBlock X) 0x00000000#32 reduces_S1024x2048_S1024 (.inl rfl) rfl

/-- The quotient. -/
def softmaxBlock (X : FVec Ideal S1024x2048 .f32) : FVec Ideal S1024x2048 .f32 :=
  divf (expBlock X) (broadcastTo S1024x2048 (shapeCast S1024x1 (sumCol X) shapeCasts_S1024_S1024x1) broadcasts_S1024x1_S1024x2048)

/-- The index over `(r)` with `j` put on the reduced axis is `(r, j)`. -/
theorem lift_row (r : Fin 1024) (j : Fin 2048) :
    (reduces_S1024x2048_S1024 : S1024x2048.Reduces [1] S1024).lift (ix1 r) j = ix2 r j :=
  funext fun a => Fin.ext (by match a with | ⟨0, _⟩ => rfl | ⟨1, _⟩ => rfl)

theorem maxCol_apply (X : FVec Ideal S1024x2048 .f32) (r : Fin 1024) :
    maxCol X (ix1 r) = rowMax (fun j => X (ix2 r j)) := by
  unfold maxCol
  refine (Ideal.multiReduction_maximumf_single X 0xFF800000#32 reduces_S1024x2048_S1024 (.inl rfl) rfl (ix1 r)).trans ?_
  have e : (X ∘ (reduces_S1024x2048_S1024 : S1024x2048.Reduces [1] S1024).lift (ix1 r)) = fun j : Fin 2048 => X (ix2 r j) :=
    funext fun j => congrArg X (lift_row r j)
  exact congrArg (fun f : Fin 2048 → EReal => (Finset.univ : Finset (Fin 2048)).fold max negInfWord f) e

theorem expBlock_apply (X : FVec Ideal S1024x2048 .f32) (r : Fin 1024) (k : Fin 2048) :
    expBlock X (ix2 r k) = expShift (fun j => X (ix2 r j)) k := by
  unfold expBlock
  show Ideal.exp (X (ix2 r k) - broadcastTo S1024x2048 (shapeCast S1024x1 (maxCol X) shapeCasts_S1024_S1024x1) broadcasts_S1024x1_S1024x2048 (ix2 r k)) = _
  rw [column_spread, column_cast, maxCol_apply]
  rfl

theorem sumCol_apply (X : FVec Ideal S1024x2048 .f32) (r : Fin 1024) :
    sumCol X (ix1 r) = ∑ j : Fin 2048, expShift (fun j => X (ix2 r j)) j := by
  unfold sumCol
  refine (Ideal.multiReduction_add_single (expBlock X) 0x00000000#32 reduces_S1024x2048_S1024 (.inl rfl) rfl (ix1 r)).trans ?_
  show (∑ j : Fin 2048, expBlock X ((reduces_S1024x2048_S1024 : S1024x2048.Reduces [1] S1024).lift (ix1 r) j)) = _
  refine Finset.sum_congr rfl fun j _ => ?_
  rw [lift_row r j]
  exact expBlock_apply X r j

/-- Row `r` of the body's softmax is the softmax of row `r` of the scores. -/
theorem softmaxBlock_apply (X : FVec Ideal S1024x2048 .f32) (r : Fin 1024) (k : Fin 2048) :
    softmaxBlock X (ix2 r k) = softmax (fun j => X (ix2 r j)) k := by
  unfold softmaxBlock
  show Ideal.div (expBlock X (ix2 r k)) (broadcastTo S1024x2048 (shapeCast S1024x1 (sumCol X) shapeCasts_S1024_S1024x1) broadcasts_S1024x1_S1024x2048 (ix2 r k)) = _
  rw [column_spread, column_cast, sumCol_apply, expBlock_apply]
  rfl

/-! ## The two products, read at an index -/

theorem qk_lhs0 (j : S1024x2048.Idx) (q : dot_S1024x128_S2048x128_S1024x2048_1_1_0_0_n_n.contr.Idx) :
    (dot_S1024x128_S2048x128_S1024x2048_1_1_0_0_n_n.lhsIdx j q 0).val = (j 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem qk_lhs1 (j : S1024x2048.Idx) (q : dot_S1024x128_S2048x128_S1024x2048_1_1_0_0_n_n.contr.Idx) :
    (dot_S1024x128_S2048x128_S1024x2048_1_1_0_0_n_n.lhsIdx j q 1).val = (q ⟨0, by decide⟩).val :=
  dot_S1024x128_S2048x128_S1024x2048_1_1_0_0_n_n.lhsIdx_val_of_single rfl j q
theorem qk_rhs0 (j : S1024x2048.Idx) (q : dot_S1024x128_S2048x128_S1024x2048_1_1_0_0_n_n.contr.Idx) :
    (dot_S1024x128_S2048x128_S1024x2048_1_1_0_0_n_n.rhsIdx j q 0).val = (j 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem qk_rhs1 (j : S1024x2048.Idx) (q : dot_S1024x128_S2048x128_S1024x2048_1_1_0_0_n_n.contr.Idx) :
    (dot_S1024x128_S2048x128_S1024x2048_1_1_0_0_n_n.rhsIdx j q 1).val = (q ⟨0, by decide⟩).val :=
  dot_S1024x128_S2048x128_S1024x2048_1_1_0_0_n_n.rhsIdx_val_of_single rfl j q

/-- A query block times the transposed key block, at `(r, k)`: the sum over the 128 features. -/
theorem qk_apply (A : FVec Ideal S1024x128 .f32) (B : FVec Ideal S2048x128 .f32) (r : Fin 1024) (k : Fin 2048) :
    matmul (F := Ideal) dot_S1024x128_S2048x128_S1024x2048_1_1_0_0_n_n (some .fp32) A B (constant (F := Ideal) S1024x2048 .f32 0x00000000#32) (ix2 r k)
      = ∑ e : Fin 128, A (ix2 r e) * B (ix2 k e) := by
  refine (Ideal.matmul_constant_zero_apply dot_S1024x128_S2048x128_S1024x2048_1_1_0_0_n_n (some .fp32) A B (ix2 r k)).trans ?_
  rw [← Equiv.sum_comp (contrEquiv1 dot_S1024x128_S2048x128_S1024x2048_1_1_0_0_n_n 128 rfl rfl).symm]
  refine Finset.sum_congr rfl fun e _ => ?_
  have he := contrEquiv1_symm_val dot_S1024x128_S2048x128_S1024x2048_1_1_0_0_n_n 128 rfl rfl e
  have el : dot_S1024x128_S2048x128_S1024x2048_1_1_0_0_n_n.lhsIdx (ix2 r k) ((contrEquiv1 dot_S1024x128_S2048x128_S1024x2048_1_1_0_0_n_n 128 rfl rfl).symm e) = ix2 r e := funext fun a => Fin.ext (by
    match a with
    | ⟨0, _⟩ => exact qk_lhs0 _ _
    | ⟨1, _⟩ => exact (qk_lhs1 _ _).trans he)
  have er : dot_S1024x128_S2048x128_S1024x2048_1_1_0_0_n_n.rhsIdx (ix2 r k) ((contrEquiv1 dot_S1024x128_S2048x128_S1024x2048_1_1_0_0_n_n 128 rfl rfl).symm e) = ix2 k e := funext fun a => Fin.ext (by
    match a with
    | ⟨0, _⟩ => exact qk_rhs0 _ _
    | ⟨1, _⟩ => exact (qk_rhs1 _ _).trans he)
  rw [el, er]

theorem wv_lhs0 (j : S1024x128.Idx) (q : dot_S1024x2048_S2048x128_S1024x128_1_0_0_1_n_n.contr.Idx) :
    (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem wv_lhs1 (j : S1024x128.Idx) (q : dot_S1024x2048_S2048x128_S1024x128_1_0_0_1_n_n.contr.Idx) :
    (dot_S1024x2048_S2048x128_S1024x128_1_0_0_1_n_n.lhsIdx j q 1).val = (q ⟨0, by decide⟩).val :=
  dot_S1024x2048_S2048x128_S1024x128_1_0_0_1_n_n.lhsIdx_val_of_single rfl j q
theorem wv_rhs0 (j : S1024x128.Idx) (q : dot_S1024x2048_S2048x128_S1024x128_1_0_0_1_n_n.contr.Idx) :
    (dot_S1024x2048_S2048x128_S1024x128_1_0_0_1_n_n.rhsIdx j q 0).val = (q ⟨0, by decide⟩).val :=
  dot_S1024x2048_S2048x128_S1024x128_1_0_0_1_n_n.rhsIdx_val_of_single rfl j q
theorem wv_rhs1 (j : S1024x128.Idx) (q : dot_S1024x2048_S2048x128_S1024x128_1_0_0_1_n_n.contr.Idx) :
    (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- A weight block times the value block, at `(r, d)`: the sum over the 2048 keys. -/
theorem wv_apply (W : FVec Ideal S1024x2048 .f32) (B : FVec Ideal S2048x128 .f32) (r : Fin 1024) (d : Fin 128) :
    matmul (F := Ideal) dot_S1024x2048_S2048x128_S1024x128_1_0_0_1_n_n (some .fp32) W B (constant (F := Ideal) S1024x128 .f32 0x00000000#32) (ix2 r d)
      = ∑ k : Fin 2048, W (ix2 r k) * B (ix2 k d) := by
  refine (Ideal.matmul_constant_zero_apply dot_S1024x2048_S2048x128_S1024x128_1_0_0_1_n_n (some .fp32) W B (ix2 r d)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r d) ((contrEquiv1 dot_S1024x2048_S2048x128_S1024x128_1_0_0_1_n_n 2048 rfl rfl).symm k) = ix2 r k := funext fun a => Fin.ext (by
    match a with
    | ⟨0, _⟩ => exact wv_lhs0 _ _
    | ⟨1, _⟩ => exact (wv_lhs1 _ _).trans hk)
  have er : dot_S1024x2048_S2048x128_S1024x128_1_0_0_1_n_n.rhsIdx (ix2 r d) ((contrEquiv1 dot_S1024x2048_S2048x128_S1024x128_1_0_0_1_n_n 2048 rfl rfl).symm k) = ix2 k d := funext fun a => Fin.ext (by
    match a with
    | ⟨0, _⟩ => exact (wv_rhs0 _ _).trans hk
    | ⟨1, _⟩ => exact wv_rhs1 _ _)
  rw [el, er]

/-! ## The body's payloads -/

/-- The query block without its leading unit axis. -/
def qBlock (P0 : Vec Ideal S1x1024x128 .f32) : FVec Ideal S1024x128 .f32 := shapeCast S1024x128 P0 shapeCasts_S1x1024x128_S1024x128
/-- A key or value block without its leading unit axis. -/
def kvBlock (P1 : Vec Ideal S1x2048x128 .f32) : FVec Ideal S2048x128 .f32 := shapeCast S2048x128 P1 shapeCasts_S1x2048x128_S2048x128
/-- The block of mask words without its leading unit axis. -/
def maskBlock (P3 : Vec Ideal S1x1024x2048 .i32) : IVec S1024x2048 32 := shapeCast S1024x2048 P3 shapeCasts_S1x1024x2048_S1024x2048

theorem qBlock_apply (P0 : Vec Ideal S1x1024x128 .f32) (r : Fin 1024) (e : Fin 128) : qBlock P0 (ix2 r e) = P0 (ix3 (0 : Fin 1) r e) :=
  shapeCast_1ab_ab_apply _ _ r e
theorem kvBlock_apply (P1 : Vec Ideal S1x2048x128 .f32) (j : Fin 2048) (e : Fin 128) : kvBlock P1 (ix2 j e) = P1 (ix3 (0 : Fin 1) j e) :=
  shapeCast_1ab_ab_apply _ _ j e
theorem maskBlock_apply (P3 : Vec Ideal S1x1024x2048 .i32) (r : Fin 1024) (j : Fin 2048) : maskBlock P3 (ix2 r j) = P3 (ix3 (0 : Fin 1) r j) :=
  shapeCast_1ab_ab_apply _ _ r j

/-- The block of masked scaled scores the body forms from the query, key and mask blocks. -/
def scoreBlock (P0 : Vec Ideal S1x1024x128 .f32) (P1 : Vec Ideal S1x2048x128 .f32) (P3 : Vec Ideal S1x1024x2048 .i32) : FVec Ideal S1024x2048 .f32 :=
  select (cmpi .ne (maskBlock P3) (constantI S1024x2048 32 0#32))
    (broadcast S1024x2048 (Scalar.ofBits (F := Ideal) .f32 0xD01502F9#32))
    (mulf (matmul (F := Ideal) dot_S1024x128_S2048x128_S1024x2048_1_1_0_0_n_n (some .fp32) (qBlock P0) (kvBlock P1) (constant (F := Ideal) S1024x2048 .f32 0x00000000#32))
      (broadcast S1024x2048 (Scalar.ofBits (F := Ideal) .f32 0x3DB504F3#32)))

/-- The weights the body stores are the softmax of that block. -/
theorem pay1_eq (P0 : Vec Ideal S1x1024x128 .f32) (P1 : Vec Ideal S1x2048x128 .f32) (P3 : Vec Ideal S1x1024x2048 .i32) :
    k0_pay1 (F := Ideal) P0 P1 P3 = softmaxBlock (scoreBlock P0 P1 P3) := rfl

/-- Row `r` of the score block: the masked scaled scores of query row `r` of the block against the key block's rows. -/
theorem scoreBlock_apply (P0 : Vec Ideal S1x1024x128 .f32) (P1 : Vec Ideal S1x2048x128 .f32) (P3 : Vec Ideal S1x1024x2048 .i32)
    (r : Fin 1024) (k : Fin 2048) :
    scoreBlock P0 P1 P3 (ix2 r k)
      = score (fun e => P0 (ix3 (0 : Fin 1) r e)) (fun j e => P1 (ix3 (0 : Fin 1) j e))
          (fun j => IntOp.cmpi .ne (P3 (ix3 (0 : Fin 1) r j)) 0#32) k := by
  unfold scoreBlock
  show Scalar.select (IntOp.cmpi .ne (maskBlock P3 (ix2 r k)) 0#32) fillWord
      (matmul (F := Ideal) dot_S1024x128_S2048x128_S1024x2048_1_1_0_0_n_n (some .fp32) (qBlock P0) (kvBlock P1) (constant (F := Ideal) S1024x2048 .f32 0x00000000#32) (ix2 r k) * scaleWord) = _
  rw [qk_apply, maskBlock_apply]
  simp only [qBlock_apply, kvBlock_apply]
  rfl

/-- The weights payload at `(r, k)`. -/
theorem pay1_apply (P0 : Vec Ideal S1x1024x128 .f32) (P1 : Vec Ideal S1x2048x128 .f32) (P3 : Vec Ideal S1x1024x2048 .i32)
    (r : Fin 1024) (k : Fin 2048) :
    k0_pay1 (F := Ideal) P0 P1 P3 (ix2 r k)
      = softmax (score (fun e => P0 (ix3 (0 : Fin 1) r e)) (fun j e => P1 (ix3 (0 : Fin 1) j e))
          (fun j => IntOp.cmpi .ne (P3 (ix3 (0 : Fin 1) r j)) 0#32)) k := by
  rw [pay1_eq, softmaxBlock_apply]
  exact congrArg (fun x => softmax x k) (funext fun j => scoreBlock_apply P0 P1 P3 r j)

/-- The stored weights block at `(u, r, k)`. -/
theorem pay2_apply (P0 : Vec Ideal S1x1024x128 .f32) (P1 : Vec Ideal S1x2048x128 .f32) (P3 : Vec Ideal S1x1024x2048 .i32)
    (u : Fin 1) (r : Fin 1024) (k : Fin 2048) :
    k0_pay2 (F := Ideal) P0 P1 P3 (ix3 u r k) = k0_pay1 (F := Ideal) P0 P1 P3 (ix2 r k) := by
  unfold k0_pay2
  exact shapeCast_ab_1ab_apply _ _ u r k

/-- The stored context block at `(u, r, d)`: the weights row's combination of the value block's rows. -/
theorem pay3_apply (P0 : Vec Ideal S1x1024x128 .f32) (P1 P2 : Vec Ideal S1x2048x128 .f32) (P3 : Vec Ideal S1x1024x2048 .i32)
    (u : Fin 1) (r : Fin 1024) (d : Fin 128) :
    k0_pay3 (F := Ideal) P0 P1 P2 P3 (ix3 u r d)
      = ∑ k : Fin 2048, k0_pay1 (F := Ideal) P0 P1 P3 (ix2 r k) * P2 (ix3 (0 : Fin 1) k d) := by
  unfold k0_pay3
  refine (shapeCast_ab_1ab_apply _ _ u r d).trans ?_
  refine (wv_apply (k0_pay1 (F := Ideal) P0 P1 P3) (kvBlock P2) r d).trans ?_
  refine Finset.sum_congr rfl fun k _ => ?_
  rw [kvBlock_apply]

end Cert.KernelIdeal.Body

end
-- ==== Proof.Blocks.lean ====
/-
  From the grid's blocks to the two result arrays.

  The grid has 16 × 2 points; point `(b, h)` works on batch `b` and on the query rows `1024·h … 1024·h + 1023`. It reads
  that block of the queries and of the mask words, the whole key and value slabs of batch `b`, and writes the same block
  of rows of the context and of the weights. So every point writes the restriction to its block of ONE function of the
  arrays — the context and the weights of `Softmax.lean` —, and the blocks cover both results: each result array ends
  as that function. The mask reaches the kernel as 32-bit words widened from the mask bits; the body's test "word ≠ 0"
  gives the bits back.
-/
import proofs.«164671_j3796751089884_2_alg».proof.Proof.Gen.KernelIdeal.Value
import proofs.«164671_j3796751089884_2_alg».proof.Proof.BodyRows
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The mask bits recovered from the mask words. -/
abbrev bitsOf (W : S16x2048x2048.Idx → BitVec 32) : S16x2048x2048.Idx → BitVec 1 := fun i => IntOp.cmpi .ne (W i) 0#32

/-- Row `r` of the block of rows that starts at row `o`. -/
abbrev rowAt (o : Nat) (ho : o + 1024 ≤ 2048) (r : Fin 1024) : Fin 2048 := ⟨o + r.val, by have := r.isLt; omega⟩

/-! ## One point's blocks, over any blocks that are the stated rows of the arrays -/

/-- The weights block a point stores: where its query and mask blocks are rows `o …` of batch `b` and its key block is
    batch `b`'s keys, entry `(r, k)` is the weight at `(b, o + r, k)`. -/
theorem weights_block (P0 : Vec Ideal S1x1024x128 .f32) (P1 : Vec Ideal S1x2048x128 .f32) (P3 : Vec Ideal S1x1024x2048 .i32)
    (Q K : S16x2048x128.Idx → EReal) (W : S16x2048x2048.Idx → BitVec 32) (b : Fin 16) (o : Nat) (ho : o + 1024 ≤ 2048)
    (h0 : ∀ (r : Fin 1024) (e : Fin 128), P0 (ix3 (0 : Fin 1) r e) = Q (ix3 b (rowAt o ho r) e))
    (h1 : ∀ (j : Fin 2048) (e : Fin 128), P1 (ix3 (0 : Fin 1) j e) = K (ix3 b j e))
    (h3 : ∀ (r : Fin 1024) (j : Fin 2048), P3 (ix3 (0 : Fin 1) r j) = W (ix3 b (rowAt o ho r) j))
    (u : Fin 1) (r : Fin 1024) (k : Fin 2048) :
    k0_pay2 (F := Ideal) P0 P1 P3 (ix3 u r k) = weights Q K (bitsOf W) (ix3 b (rowAt o ho r) k) := by
  rw [pay2_apply, pay1_apply]
  show softmax _ k = softmax (scoreRow Q K (bitsOf W) b (rowAt o ho r)) k
  refine congrArg (fun x => softmax x k) ?_
  unfold scoreRow
  exact score_congr (fun e => h0 r e) (fun j e => h1 j e) (fun j => congrArg (fun w => IntOp.cmpi .ne w 0#32) (h3 r j))

/-- The same with the block index and the array index given by their coordinates. -/
theorem weights_block_at (P0 : Vec Ideal S1x1024x128 .f32) (P1 : Vec Ideal S1x2048x128 .f32) (P3 : Vec Ideal S1x1024x2048 .i32)
    (Q K : S16x2048x128.Idx → EReal) (W : S16x2048x2048.Idx → BitVec 32) (b : Fin 16) (o : Nat) (ho : o + 1024 ≤ 2048)
    (h0 : ∀ (r : Fin 1024) (e : Fin 128), P0 (ix3 (0 : Fin 1) r e) = Q (ix3 b (rowAt o ho r) e))
    (h1 : ∀ (j : Fin 2048) (e : Fin 128), P1 (ix3 (0 : Fin 1) j e) = K (ix3 b j e))
    (h3 : ∀ (r : Fin 1024) (j : Fin 2048), P3 (ix3 (0 : Fin 1) r j) = W (ix3 b (rowAt o ho r) j))
    (y : S1x1024x2048.Idx) (i : S16x2048x2048.Idx)
    (hi0 : (i 0).val = b.val) (hi1 : (i 1).val = o + (y 1).val) (hi2 : (i 2).val = (y 2).val) :
    k0_pay2 (F := Ideal) P0 P1 P3 y = weights Q K (bitsOf W) i := by
  obtain ⟨u, r, k, rfl⟩ : ∃ (u : Fin 1) (r : Fin 1024) (k : Fin 2048), y = ix3 u r k := ⟨y 0, y 1, y 2, eq_ix3 y⟩
  have hi : i = ix3 b (rowAt o ho r) k := funext fun a => Fin.ext (by
    match a with
    | ⟨0, _⟩ => exact hi0
    | ⟨1, _⟩ => exact hi1
    | ⟨2, _⟩ => exact hi2)
  rw [hi]
  exact weights_block P0 P1 P3 Q K W b o ho h0 h1 h3 u r k

/-- The context block a point stores: entry `(r, d)` is the context at `(b, o + r, d)`. -/
theorem context_block (P0 : Vec Ideal S1x1024x128 .f32) (P1 P2 : Vec Ideal S1x2048x128 .f32) (P3 : Vec Ideal S1x1024x2048 .i32)
    (Q K V : S16x2048x128.Idx → EReal) (W : S16x2048x2048.Idx → BitVec 32) (b : Fin 16) (o : Nat) (ho : o + 1024 ≤ 2048)
    (h0 : ∀ (r : Fin 1024) (e : Fin 128), P0 (ix3 (0 : Fin 1) r e) = Q (ix3 b (rowAt o ho r) e))
    (h1 : ∀ (j : Fin 2048) (e : Fin 128), P1 (ix3 (0 : Fin 1) j e) = K (ix3 b j e))
    (h2 : ∀ (j : Fin 2048) (e : Fin 128), P2 (ix3 (0 : Fin 1) j e) = V (ix3 b j e))
    (h3 : ∀ (r : Fin 1024) (j : Fin 2048), P3 (ix3 (0 : Fin 1) r j) = W (ix3 b (rowAt o ho r) j))
    (u : Fin 1) (r : Fin 1024) (d : Fin 128) :
    k0_pay3 (F := Ideal) P0 P1 P2 P3 (ix3 u r d) = context Q K V (bitsOf W) (ix3 b (rowAt o ho r) d) := by
  rw [pay3_apply]
  show _ = ∑ k : Fin 2048, softmax (scoreRow Q K (bitsOf W) b (rowAt o ho r)) k * V (ix3 b k d)
  refine Finset.sum_congr rfl fun k _ => ?_
  rw [h2 k d, ← pay2_apply P0 P1 P3 u r k, weights_block P0 P1 P3 Q K W b o ho h0 h1 h3 u r k]
  rfl

theorem context_block_at (P0 : Vec Ideal S1x1024x128 .f32) (P1 P2 : Vec Ideal S1x2048x128 .f32) (P3 : Vec Ideal S1x1024x2048 .i32)
    (Q K V : S16x2048x128.Idx → EReal) (W : S16x2048x2048.Idx → BitVec 32) (b : Fin 16) (o : Nat) (ho : o + 1024 ≤ 2048)
    (h0 : ∀ (r : Fin 1024) (e : Fin 128), P0 (ix3 (0 : Fin 1) r e) = Q (ix3 b (rowAt o ho r) e))
    (h1 : ∀ (j : Fin 2048) (e : Fin 128), P1 (ix3 (0 : Fin 1) j e) = K (ix3 b j e))
    (h2 : ∀ (j : Fin 2048) (e : Fin 128), P2 (ix3 (0 : Fin 1) j e) = V (ix3 b j e))
    (h3 : ∀ (r : Fin 1024) (j : Fin 2048), P3 (ix3 (0 : Fin 1) r j) = W (ix3 b (rowAt o ho r) j))
    (y : S1x1024x128.Idx) (i : S16x2048x128.Idx)
    (hi0 : (i 0).val = b.val) (hi1 : (i 1).val = o + (y 1).val) (hi2 : (i 2).val = (y 2).val) :
    k0_pay3 (F := Ideal) P0 P1 P2 P3 y = context Q K V (bitsOf W) i := by
  obtain ⟨u, r, d, rfl⟩ : ∃ (u : Fin 1) (r : Fin 1024) (d : Fin 128), y = ix3 u r d := ⟨y 0, y 1, y 2, eq_ix3 y⟩
  have hi : i = ix3 b (rowAt o ho r) d := funext fun a => Fin.ext (by
    match a with
    | ⟨0, _⟩ => exact hi0
    | ⟨1, _⟩ => exact hi1
    | ⟨2, _⟩ => exact hi2)
  rw [hi]
  exact context_block P0 P1 P2 P3 Q K V W b o ho h0 h1 h2 h3 u r d

/-! ## The grid's index maps, decided over the 32 points -/

/-- Every window's block index in terms of the weights window's: the query, mask and context blocks move with it, the
    key and value blocks only follow the batch. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (0 : Fin 3) < 16 ∧ win0_5.index t (1 : Fin 3) < 2 ∧ win0_5.index t (2 : Fin 3) = 0 :=
  (by decide +kernel : ∀ t : Fin grid0.N, _)

/-- Every block of rows of every batch is some point's. -/
theorem idx_onto : ∀ (b : Fin 16) (h : Fin 2), ∃ t : Fin cfg0.N, win0_5.index t = ![b.val, h.val, 0] :=
  (by decide +kernel : ∀ (b : Fin 16) (h : Fin 2), ∃ t : Fin grid0.N, win0_5.index t = ![b.val, h.val, 0])

/-! ## The input blocks at a point are the stated rows of the arrays -/

theorem q_rows (c : Dev nD) (t : Fin cfg0.N) (hb : win0_5.index t (0 : Fin 3) < 16) (ho : win0_5.index t (1 : Fin 3) * 1024 + 1024 ≤ 2048)
    (r : Fin 1024) (e : Fin 128) :
    (iblk m c 0 t : Vec Ideal S1x1024x128 .f32) (ix3 (0 : Fin 1) r e)
      = (V m c main_arg0 : S16x2048x128.Idx → EReal) (ix3 ⟨win0_5.index t (0 : Fin 3), hb⟩ (rowAt (win0_5.index t (1 : Fin 3) * 1024) ho r) e) := by
  obtain ⟨e00, e01, e02, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = win0_5.index t (0 : Fin 3); omega
  | ⟨1, _⟩ => show win0_0.index t (1 : Fin 3) * 1024 + 1 * r.val = win0_5.index t (1 : Fin 3) * 1024 + r.val; omega
  | ⟨2, _⟩ => show win0_0.index t (2 : Fin 3) * 128 + 1 * e.val = e.val; omega

theorem k_rows (c : Dev nD) (t : Fin cfg0.N) (hb : win0_5.index t (0 : Fin 3) < 16) (j : Fin 2048) (e : Fin 128) :
    (iblk m c 1 t : Vec Ideal S1x2048x128 .f32) (ix3 (0 : Fin 1) j e)
      = (V m c main_arg1 : S16x2048x128.Idx → EReal) (ix3 ⟨win0_5.index t (0 : Fin 3), hb⟩ j e) := by
  obtain ⟨-, -, -, e10, e11, e12, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = win0_5.index t (0 : Fin 3); omega
  | ⟨1, _⟩ => show win0_1.index t (1 : Fin 3) * 2048 + 1 * j.val = j.val; omega
  | ⟨2, _⟩ => show win0_1.index t (2 : Fin 3) * 128 + 1 * e.val = e.val; omega

theorem v_rows (c : Dev nD) (t : Fin cfg0.N) (hb : win0_5.index t (0 : Fin 3) < 16) (j : Fin 2048) (e : Fin 128) :
    (iblk m c 2 t : Vec Ideal S1x2048x128 .f32) (ix3 (0 : Fin 1) j e)
      = (V m c main_arg2 : S16x2048x128.Idx → EReal) (ix3 ⟨win0_5.index t (0 : Fin 3), hb⟩ j e) := by
  obtain ⟨-, -, -, -, -, -, e20, e21, e22, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * 0 = win0_5.index t (0 : Fin 3); omega
  | ⟨1, _⟩ => show win0_2.index t (1 : Fin 3) * 2048 + 1 * j.val = j.val; omega
  | ⟨2, _⟩ => show win0_2.index t (2 : Fin 3) * 128 + 1 * e.val = e.val; omega

theorem mask_rows (c : Dev nD) (t : Fin cfg0.N) (hb : win0_5.index t (0 : Fin 3) < 16) (ho : win0_5.index t (1 : Fin 3) * 1024 + 1024 ≤ 2048)
    (r : Fin 1024) (j : Fin 2048) :
    (iblk m c 3 t : Vec Ideal S1x1024x2048 .i32) (ix3 (0 : Fin 1) r j)
      = (V m c main_v0 : S16x2048x2048.Idx → BitVec 32) (ix3 ⟨win0_5.index t (0 : Fin 3), hb⟩ (rowAt (win0_5.index t (1 : Fin 3) * 1024) ho r) j) := by
  obtain ⟨-, -, -, -, -, -, -, -, -, e30, e31, e32, -⟩ := idx_facts t
  unfold iblk
  rw [View.read_apply]
  show V m c main_v0 _ = V m c main_v0 _
  congr 1
  funext a
  apply Fin.ext
  match a with
  | ⟨0, _⟩ => show win0_3.index t (0 : Fin 3) * 1 + 1 * 0 = win0_5.index t (0 : Fin 3); omega
  | ⟨1, _⟩ => show win0_3.index t (1 : Fin 3) * 1024 + 1 * r.val = win0_5.index t (1 : Fin 3) * 1024 + r.val; omega
  | ⟨2, _⟩ => show win0_3.index t (2 : Fin 3) * 2048 + 1 * j.val = j.val; omega

/-! ## What each point writes back -/

/-- Point `t` writes back its block of the weights. -/
theorem weights_flushed (c : Dev nD) (t : Fin cfg0.N) :
    (dats m 0 c).flushed 5 t = ((cfg0.win 5).blk t).view.read (Elt Ideal)
      (weights (V m c main_arg0) (V m c main_arg1) (bitsOf (V m c main_v0))) := by
  rw [Value.flushed5]
  unfold out0_5
  rw [View.canon_unit_zero hz]
  simp only [View.ld_unit_zero (S := S1x1024x128) hz, View.ld_unit_zero (S := S1x2048x128) hz, View.ld_unit_zero (S := S1x1024x2048) hz]
  obtain ⟨-, -, -, -, -, -, -, -, -, -, -, -, -, -, -, hb, hh, h52⟩ := idx_facts t
  have ho : win0_5.index t (1 : Fin 3) * 1024 + 1024 ≤ 2048 := by omega
  funext y
  show k0_pay2 (F := Ideal) (iblk m c 0 t) (iblk m c 1 t) (iblk m c 3 t) y = weights _ _ _ (((cfg0.win 5).blk t).view.emb y)
  refine weights_block_at (iblk m c 0 t) (iblk m c 1 t) (iblk m c 3 t) (V m c main_arg0) (V m c main_arg1) (V m c main_v0)
    ⟨win0_5.index t (0 : Fin 3), hb⟩ (win0_5.index t (1 : Fin 3) * 1024) ho
    (q_rows m c t hb ho) (k_rows m c t hb) (mask_rows m c t hb ho) y _ ?_ ?_ ?_
  · have hy0 : (y 0).val < 1 := (y 0).isLt
    show win0_5.index t (0 : Fin 3) * 1 + 1 * (y 0).val = win0_5.index t (0 : Fin 3); omega
  · show win0_5.index t (1 : Fin 3) * 1024 + 1 * (y 1).val = win0_5.index t (1 : Fin 3) * 1024 + (y 1).val; omega
  · show win0_5.index t (2 : Fin 3) * 2048 + 1 * (y 2).val = (y 2).val; omega

/-- Point `t` writes back its block of the context. -/
theorem context_flushed (c : Dev nD) (t : Fin cfg0.N) :
    (dats m 0 c).flushed 4 t = ((cfg0.win 4).blk t).view.read (Elt Ideal)
      (context (V m c main_arg0) (V m c main_arg1) (V m c main_arg2) (bitsOf (V m c main_v0))) := by
  rw [Value.flushed4]
  unfold out0_4
  rw [View.canon_unit_zero hz]
  simp only [View.ld_unit_zero (S := S1x1024x128) hz, View.ld_unit_zero (S := S1x2048x128) hz, View.ld_unit_zero (S := S1x1024x2048) hz]
  obtain ⟨-, -, -, -, -, -, -, -, -, -, -, -, e40, e41, e42, hb, hh, h52⟩ := idx_facts t
  have ho : win0_5.index t (1 : Fin 3) * 1024 + 1024 ≤ 2048 := by omega
  funext y
  show k0_pay3 (F := Ideal) (iblk m c 0 t) (iblk m c 1 t) (iblk m c 2 t) (iblk m c 3 t) y = context _ _ _ _ (((cfg0.win 4).blk t).view.emb y)
  refine context_block_at (iblk m c 0 t) (iblk m c 1 t) (iblk m c 2 t) (iblk m c 3 t) (V m c main_arg0) (V m c main_arg1) (V m c main_arg2) (V m c main_v0)
    ⟨win0_5.index t (0 : Fin 3), hb⟩ (win0_5.index t (1 : Fin 3) * 1024) ho
    (q_rows m c t hb ho) (k_rows m c t hb) (v_rows m c t hb) (mask_rows m c t hb ho) y _ ?_ ?_ ?_
  · have hy0 : (y 0).val < 1 := (y 0).isLt
    show win0_4.index t (0 : Fin 3) * 1 + 1 * (y 0).val = win0_5.index t (0 : Fin 3); omega
  · show win0_4.index t (1 : Fin 3) * 1024 + 1 * (y 1).val = win0_5.index t (1 : Fin 3) * 1024 + (y 1).val; omega
  · show win0_4.index t (2 : Fin 3) * 128 + 1 * (y 2).val = (y 2).val; omega

/-! ## The blocks cover the results -/

/-- An index of the weights is in point `t`'s block iff each coordinate is in the block's range on its axis. -/
theorem mem_weights_blk (t : Fin cfg0.N) (i : S16x2048x2048.Idx) :
    i ∈ ((cfg0.win 5).blk t).view.set ↔ ∀ a : Fin 3, win0_5.index t a * S1x1024x2048.size a ≤ (i a).val ∧ (i a).val < win0_5.index t a * S1x1024x2048.size a + S1x1024x2048.size a := by
  show i ∈ ((View.whole main_v1_1).slice (win0_5.rect t)).set ↔ _
  rw [View.set_slice_whole, Rect.mem_set_unit]
  exact Iff.rfl

theorem mem_context_blk (t : Fin cfg0.N) (i : S16x2048x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v1_0).slice (win0_4.rect t)).set ↔ _
  rw [View.set_slice_whole, Rect.mem_set_unit]
  exact Iff.rfl

/-- Row `r` of batch `b` lies in the block of the point `(b, r / 1024)`. -/
theorem weights_cover (i : S16x2048x2048.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_weights_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 2048 ≤ (i 2).val ∧ (i 2).val < win0_5.index t (2 : Fin 3) * 2048 + 2048; omega

theorem context_cover (i : S16x2048x128.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  obtain ⟨-, -, -, -, -, -, -, -, -, -, -, -, e40, e41, e42, -⟩ := idx_facts t
  refine ⟨t, flush0_4 t, ?_⟩
  rw [mem_context_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-! ## The mask words, and the two result arrays after the run -/

/-- The region finds the mask as 32-bit words widened from the mask bits. -/
theorem mask_words (c : Dev nD) :
    (V m c main_v0 : S16x2048x2048.Idx → BitVec 32)
      = extui 32 (m ((c : Thread nD τ).loc main_arg3) : S16x2048x2048.Idx → BitVec 1) natLt_1_32 := by
  dsimp only [V, hostOps0]
  after_results

/-- So the bits the body recovers are the mask's. -/
theorem bits_eq (c : Dev nD) :
    bitsOf (V m c main_v0) = (m ((c : Thread nD τ).loc main_arg3) : S16x2048x2048.Idx → BitVec 1) := by
  rw [mask_words m c]
  funext i
  exact bit_of_word _

theorem weights_final (c : Dev nD) : (dats m 0 c).arrAt 5 cfg0.N
    = weights (m ((c : Thread nD τ).loc main_arg0)) (m ((c : Thread nD τ).loc main_arg1)) (m ((c : Thread nD τ).loc main_arg3)) := by
  rw [(dats m 0 c).arrAt_eq_of_cover 5 _ (fun t _ => weights_flushed m c t) weights_cover]
  rw [V_main_arg0, V_main_arg1, bits_eq]

theorem context_final (c : Dev nD) : (dats m 0 c).arrAt 4 cfg0.N
    = context (m ((c : Thread nD τ).loc main_arg0)) (m ((c : Thread nD τ).loc main_arg1)) (m ((c : Thread nD τ).loc main_arg2)) (m ((c : Thread nD τ).loc main_arg3)) := by
  rw [(dats m 0 c).arrAt_eq_of_cover 4 _ (fun t _ => context_flushed m c t) context_cover]
  rw [V_main_arg0, V_main_arg1, V_main_arg2, bits_eq]

/-- The kernel's run: the first result ends as the context, the second as the weights, the arguments unchanged. -/
theorem run : θ_run defs (onTc (τ := τ) (main (F := Ideal))) ⟨m, fun _ => 0, ρ⟩ fun r => ∀ c : Dev nD,
      r.2.mem ((c : Thread nD τ).loc main_v1_0) = context (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (context_final m c), (h c).2.1.trans (weights_final m c), (h c).2.2⟩)
    (Value.run_blocks m ρ)

end Cert.KernelIdeal.Blocks

end
-- ==== Proof.lean ====
/-
  Masked scaled dot-product attention: the kernel against the reference, over the extended reals.

  Both programs compute, for every batch `b` and query row `r`, the scores `(∑ₑ Q[b,r,e] · K[b,k,e]) · s` against every
  key `k` (the same f32 word `s` on both sides), put the same f32 fill word where the mask is set, turn the row into
  weights by the softmax shifted by the row's maximum, and return the weights and their combination of the value rows.
  The kernel does this a block of 1024 query rows at a time on a 16 × 2 grid, with the products as matrix products of
  blocks and the row maximum and row sum as lane reductions; the reference does it on whole arrays with batched
  contractions and host reductions. Read at an index the two are the same sums, the same fold of `max` from `-∞`, the
  same exponentials and the same quotient, so no law of the extended reals beyond that is needed and the inputs'
  finiteness is never used. Two small differences are bridged: the reference takes the maximum with `-∞` once more
  (which changes nothing, the fold already starts there), and the kernel receives the mask as 32-bit words widened from
  the mask bits and tests them against zero (which gives the bits back).

  `Softmax.lean` states the two results as functions of the argument arrays; `RefAttention.lean` shows the reference
  computes them; `BodyRows.lean` reads the kernel body's block computation at an index; `Blocks.lean` takes the grid's
  blocks to the whole arrays. Here the claims are assembled: the three frames, the idealization (the kernel over the
  extended reals is the kernel's own text, no operation rewritten), and the equality of the two programs' results.
-/
import proofs.«164671_j3796751089884_2_alg».proof.Defs
import proofs.«164671_j3796751089884_2_alg».proof.Proof.Gen.Kernel
import proofs.«164671_j3796751089884_2_alg».proof.Proof.Gen.Kernel.Skeleton
import proofs.«164671_j3796751089884_2_alg».proof.Proof.Gen.Kernel.Launch
import proofs.«164671_j3796751089884_2_alg».proof.Proof.Gen.Kernel.Points
import proofs.«164671_j3796751089884_2_alg».proof.Proof.Gen.Kernel.Frame
import proofs.«164671_j3796751089884_2_alg».proof.Proof.Gen.KernelIdeal
import proofs.«164671_j3796751089884_2_alg».proof.Proof.Gen.KernelIdeal.Skeleton
import proofs.«164671_j3796751089884_2_alg».proof.Proof.Gen.KernelIdeal.Launch
import proofs.«164671_j3796751089884_2_alg».proof.Proof.Gen.KernelIdeal.Points
import proofs.«164671_j3796751089884_2_alg».proof.Proof.Gen.KernelIdeal.Frame
import proofs.«164671_j3796751089884_2_alg».proof.Proof.Gen.ReferenceIdeal
import proofs.«164671_j3796751089884_2_alg».proof.Proof.Gen.KernelIdeal.Value
import proofs.«164671_j3796751089884_2_alg».proof.Proof.Gen.ReferenceIdeal.Run
import proofs.«164671_j3796751089884_2_alg».proof.Proof.Gen.ReferenceIdeal.Read
import proofs.«164671_j3796751089884_2_alg».proof.Proof.Gen.Pre_finite_inputs
import proofs.«164671_j3796751089884_2_alg».proof.Proof.Softmax
import proofs.«164671_j3796751089884_2_alg».proof.Proof.RefAttention
import proofs.«164671_j3796751089884_2_alg».proof.Proof.BodyRows
import proofs.«164671_j3796751089884_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The kernel over the extended reals is the kernel's own text with no operation rewritten: there is nothing to restate. -/
theorem preserves : Cert.preserves_Kernel_KernelIdeal := trivial

/-- From memories that agree on the four arguments both programs end with the context in their first result and the
    attention weights in their second: the kernel block by block, the reference operation by operation. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v15_eq _ _ _ _).trans
      ((Cert.ReferenceIdeal.RefValue.context_eq _ _ _ _).trans ?_))
    rw [(hagree c).1, (hagree c).2.1, (hagree c).2.2.1, (hagree c).2.2.2]
  · refine (h c).2.1.trans ((Cert.ReferenceIdeal.Read.val_main_v14_eq _ _ _).trans
      ((Cert.ReferenceIdeal.RefValue.weights_eq _ _ _).trans ?_))
    rw [(hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
